-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1x1024x1024 : Shape := ⟨4, ![16, 1, 1024, 1024]⟩
abbrev S_ : Shape := ⟨0, ![]⟩

class Facts : Prop where
  bcast_S_S16x1x1024x1024 : S_.BroadcastsInDim S16x1x1024x1024 (![] : Fin 0 → Fin S16x1x1024x1024.rank)
  reducesTo_S16x1x1024x1024_S_d0_1_2_3 : S16x1x1024x1024.ReducesTo [0, 1, 2, 3] S_
  h_S_ : 0 < S_.numel

variable [Facts]

def fn {F : FTy → Type} [FloatOps F] (main_arg0 : FVec F S16x1x1024x1024 .f32) : IVec S_ 1 :=
  let main_v0 : FVec F S16x1x1024x1024 .f32 := Host.absf main_arg0
  let main_cst : FVec F S_ .f32 := constant S_ .f32 0x7F800000#32
  let main_v1 : FVec F S16x1x1024x1024 .f32 := broadcastInDim S16x1x1024x1024 ![] bcast_S_S16x1x1024x1024 main_cst
  let main_v2 : IVec S16x1x1024x1024 1 := cmpf .olt main_v0 main_v1
  let main_c : IVec S_ 1 := constantI S_ 1 1#1
  let main_v3 : IVec S_ 1 := (fun x v => Host.reduce IntOp.andi x v reducesTo_S16x1x1024x1024_S_d0_1_2_3 h_S_) main_v2 main_c
  main_v3
-- ==== Kernel.lean ====
abbrev S16x1x1024x1024 : Shape := ⟨4, ![16, 1, 1024, 1024]⟩
abbrev S1x1x1024x1024 : Shape := ⟨4, ![1, 1, 1024, 1024]⟩
abbrev S1024x1024 : Shape := ⟨2, ![1024, 1024]⟩

abbrev nBuf : Space → Nat
  | .hbm => 2
  | .vmem => 4
  | .smem => 0
  | _ => 0

abbrev bufTy : (tb : Table) → Fin (tcTables nBuf tb) → BufTy
  | .hbm, ⟨0, _⟩ => ⟨S16x1x1024x1024, .f32⟩
  | .hbm, ⟨1, _⟩ => ⟨S16x1x1024x1024, .f32⟩
  | .local _ .vmem, ⟨0, _⟩ => ⟨S1x1x1024x1024, .f32⟩
  | .local _ .vmem, ⟨1, _⟩ => ⟨S1x1x1024x1024, .f32⟩
  | .local _ .vmem, ⟨2, _⟩ => ⟨S1x1x1024x1024, .f32⟩
  | .local _ .vmem, ⟨3, _⟩ => ⟨S1x1x1024x1024, .f32⟩
  | _, _ => ⟨S16x1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1x1x1024x1024_S1x1x1024x1024_0_0_0_0 : ∀ a, (![0, 0, 0, 0] : Fin 4 → Nat) a + S1x1x1024x1024.size a ≤ S1x1x1024x1024.size a
  h_S1x1x1024x1024 : 0 < S1x1x1024x1024.numel
  shapeCasts_S1x1x1024x1024_S1024x1024 : S1x1x1024x1024.ShapeCasts S1024x1024
  iota_S1024x1024_d0_w32 : S1024x1024.Iotas .tc 32 [0]
  rotates_S1024x1024_d0 : S1024x1024.Rotates 0 none
  iota_S1024x1024_d1_w32 : S1024x1024.Iotas .tc 32 [1]
  rotates_S1024x1024_d1 : S1024x1024.Rotates 1 none
  natLt_1_32 : 1 < 32
  shapeCasts_S1024x1024_S1x1x1024x1024 : S1024x1024.ShapeCasts S1x1x1024x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024x1024.size a ≤ S16x1x1024x1024.size a
  hwx0_0 : ∀ i : grid0.Coords, EltTy.bits .f32 = 32 ∨ (Rect.block (s := S16x1x1024x1024) S1x1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024x1024.size a ≤ S16x1x1024x1024.size a
  hwx0_1 : ∀ i : grid0.Coords, EltTy.bits .f32 = 32 ∨ (Rect.block (s := S16x1x1024x1024) S1x1x1024x1024.size (cc0_transform_1 i) (hinb0_1 i)).WholeWords (EltTy.packing .f32)

variable [Facts₀]

abbrev win0_0 : Pipeline.Window sig grid0 :=
  Pipeline.Window.ofSpec (Memref.whole main_arg0) S1x1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x1024x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x1x1024x1024 : Shape := ⟨4, ![16, 1, 1024, 1024]⟩
abbrev S_ : Shape := ⟨0, ![]⟩
abbrev S16x1x1026x1026 : Shape := ⟨4, ![16, 1, 1026, 1026]⟩

abbrev nBuf : Space → Nat
  | .hbm => 13
  | .vmem => 0
  | .smem => 0
  | _ => 0

abbrev bufTy : (tb : Table) → Fin (tcTables nBuf tb) → BufTy
  | .hbm, ⟨0, _⟩ => ⟨S16x1x1024x1024, .f32⟩
  | .hbm, ⟨1, _⟩ => ⟨S_, .i32⟩
  | .hbm, ⟨2, _⟩ => ⟨S_, .f32⟩
  | .hbm, ⟨3, _⟩ => ⟨S16x1x1026x1026, .f32⟩
  | .hbm, ⟨4, _⟩ => ⟨S_, .f32⟩
  | .hbm, ⟨5, _⟩ => ⟨S16x1x1024x1024, .f32⟩
  | .hbm, ⟨6, _⟩ => ⟨S_, .f32⟩
  | .hbm, ⟨7, _⟩ => ⟨S16x1x1024x1024, .f32⟩
  | .hbm, ⟨8, _⟩ => ⟨S16x1x1024x1024, .f32⟩
  | .hbm, ⟨9, _⟩ => ⟨S_, .f32⟩
  | .hbm, ⟨10, _⟩ => ⟨S16x1x1024x1024, .f32⟩
  | .hbm, ⟨11, _⟩ => ⟨S16x1x1024x1024, .i1⟩
  | .hbm, ⟨12, _⟩ => ⟨S16x1x1024x1024, .f32⟩
  | _, _ => ⟨S16x1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]

class Facts₀ : Prop where
  pads_S16x1x1024x1024_S16x1x1026x1026_000_000_110_110 : S16x1x1024x1024.Pads (![0, 0, 1, 1] : Fin 4 → Nat) ![0, 0, 1, 1] ![0, 0, 0, 0] S16x1x1026x1026
  h_S_ : 0 < S_.numel
  reduceWindows_S16x1x1026x1026_S16x1x1024x1024_w1s1p0_0_w1s1p0_0_w3s1p0_0_w3s1p0_0 : S16x1x1026x1026.ReduceWindows (![1, 1, 3, 3] : Fin 4 → Nat) ![1, 1, 1, 1] ![0, 0, 0, 0] ![0, 0, 0, 0] S16x1x1024x1024
  bcast_S_S16x1x1024x1024 : S_.BroadcastsInDim S16x1x1024x1024 (![] : Fin 0 → Fin S16x1x1024x1024.rank)

variable [Facts₀]

class Facts : Prop extends Facts₀ where

variable [Facts]
-- ==== Proof.Masked.lean ====
/-
  A rotation of a 1024×1024 tile along one axis, with the entries that wrapped around overwritten by zero: what it holds
  at an index.

  The tile is rotated along its rows (axis 0) or along its columns (axis 1) by `s`: entry `j` on that axis takes the
  value of entry `j − s` modulo 1024. A mask then compares the coordinate on that axis with a constant `k` and puts zero
  where they are equal — the one line of the tile where the rotation brought a value around the end. At an index whose
  coordinate is `k` the result is zero; at any other index it is the tile's entry `s` places back (modulo 1024).
-/
import Idealize.ShloMosaic.Lib.KernelVsHost
import Idealize.ShloMosaic.Lib.ValueIdx
import Idealize.ShloMosaic.PureOps.Ideal.Laws

noncomputable section

open Idealize.ShloMosaic Idealize.ShloMosaic.ValueIdx

namespace Cert.EdgeMask

/-- The kernel's tile: 1024 rows of 1024 lanes. -/
abbrev Tile : Shape := ⟨2, ![1024, 1024]⟩

/-- Two numbers below 2³² are equal as 32-bit words exactly when they are equal. -/
theorem word_eq_iff {a b : ℕ} (ha : a < 4294967296) (hb : b < 4294967296) :
    BitVec.ofNat 32 a = BitVec.ofNat 32 b ↔ a = b := by
  constructor
  · intro h
    have h' := congrArg BitVec.toNat h
    rw [BitVec.toNat_ofNat, BitVec.toNat_ofNat] at h'
    norm_num at h'
    omega
  · rintro rfl
    rfl

/-- "The row number is `k`", as the bit the kernel computes: the row iota compared with the splat of `k`. -/
theorem rowIs_apply (hι : Tile.Iotas .tc 32 [0]) (k : ℕ) (hk : k < 1024) (r c : Fin 1024) :
    cmpi .eq (iota .tc Tile 32 [0] hι) (broadcast Tile (BitVec.ofNat 32 k)) (ix2 r c)
      = if r.val = k then 1#1 else 0#1 := by
  show BitVec.ofBool (BitVec.ofNat 32 (0 * 1024 + r.val) == BitVec.ofNat 32 k) = _
  have hr : r.val < 1024 := r.isLt
  by_cases h : r.val = k
  · rw [if_pos h, ← h, Nat.zero_mul, Nat.zero_add, beq_self_eq_true]
    rfl
  · rw [if_neg h, beq_eq_false_iff_ne.mpr (fun e => h (by
      have := (word_eq_iff (a := 0 * 1024 + r.val) (b := k) (by omega) (by omega)).mp e; omega))]
    rfl

/-- "The column number is `k`", as the bit the kernel computes: the column iota compared with the splat of `k`. -/
theorem colIs_apply (hι : Tile.Iotas .tc 32 [1]) (k : ℕ) (hk : k < 1024) (r c : Fin 1024) :
    cmpi .eq (iota .tc Tile 32 [1] hι) (broadcast Tile (BitVec.ofNat 32 k)) (ix2 r c)
      = if c.val = k then 1#1 else 0#1 := by
  show BitVec.ofBool (BitVec.ofNat 32 (0 * 1024 + c.val) == BitVec.ofNat 32 k) = _
  have hc : c.val < 1024 := c.isLt
  by_cases h : c.val = k
  · rw [if_pos h, ← h, Nat.zero_mul, Nat.zero_add, beq_self_eq_true]
    rfl
  · rw [if_neg h, beq_eq_false_iff_ne.mpr (fun e => h (by
      have := (word_eq_iff (a := 0 * 1024 + c.val) (b := k) (by omega) (by omega)).mp e; omega))]
    rfl

/-- A shift amount below 1024 read back from its 32-bit word. -/
theorem toNat_shift {s : ℕ} (hs : s < 1024) : (BitVec.ofNat 32 s).toNat % 1024 = s := by
  rw [BitVec.toNat_ofNat]
  norm_num
  omega

/-- The tile rotated along its ROWS by `s` and zeroed on row `k`, read on row `k`: zero. -/
theorem rowShift_masked (hι : Tile.Iotas .tc 32 [0]) (hρ : Tile.Rotates 0 none) (s k : ℕ) (hk : k < 1024)
    (w : FVec Ideal Tile .f32) (r c : Fin 1024) (hr : r.val = k) :
    select (cmpi .eq (iota .tc Tile 32 [0] hι) (broadcast Tile (BitVec.ofNat 32 k)))
        (broadcast Tile (Scalar.ofBits (F := Ideal) .f32 0x00000000#32))
        (dynamicRotate 0 (BitVec.ofNat 32 s) none w hρ) (ix2 r c) = 0 := by
  rw [select_apply, rowIs_apply hι k hk r c, if_pos hr, select_one, broadcast_apply]
  exact Ideal.ofBits_zero_f32

/-- The tile rotated along its ROWS by `s` and zeroed on row `k`, read off row `k`: the entry `s` rows back. -/
theorem rowShift_unmasked (hι : Tile.Iotas .tc 32 [0]) (hρ : Tile.Rotates 0 none) (s k : ℕ) (hk : k < 1024) (hs : s < 1024)
    (w : FVec Ideal Tile .f32) (r c r' : Fin 1024) (hr : r.val ≠ k) (hr' : r'.val = (r.val + 1024 - s) % 1024) :
    select (cmpi .eq (iota .tc Tile 32 [0] hι) (broadcast Tile (BitVec.ofNat 32 k)))
        (broadcast Tile (Scalar.ofBits (F := Ideal) .f32 0x00000000#32))
        (dynamicRotate 0 (BitVec.ofNat 32 s) none w hρ) (ix2 r c) = w (ix2 r' c) := by
  rw [select_apply, rowIs_apply hι k hk r c, if_neg hr, select_zero]
  refine dynamicRotate_apply 0 _ w hρ (ix2 r c) (ix2 r' c) (fun b => ?_)
  match b with
  | ⟨0, _⟩ =>
    show r'.val = if (0 : Fin 2) = 0 then (r.val + 1024 - (BitVec.ofNat 32 s).toNat % 1024) % 1024 else r.val
    rw [if_pos rfl, toNat_shift hs, hr']
  | ⟨1, _⟩ =>
    show c.val = if (1 : Fin 2) = 0 then (c.val + 1024 - (BitVec.ofNat 32 s).toNat % 1024) % 1024 else c.val
    rw [if_neg (by decide)]

/-- The tile rotated along its COLUMNS by `s` and zeroed on column `k`, read on column `k`: zero. -/
theorem colShift_masked (hι : Tile.Iotas .tc 32 [1]) (hρ : Tile.Rotates 1 none) (s k : ℕ) (hk : k < 1024)
    (w : FVec Ideal Tile .f32) (r c : Fin 1024) (hc : c.val = k) :
    select (cmpi .eq (iota .tc Tile 32 [1] hι) (broadcast Tile (BitVec.ofNat 32 k)))
        (broadcast Tile (Scalar.ofBits (F := Ideal) .f32 0x00000000#32))
        (dynamicRotate 1 (BitVec.ofNat 32 s) none w hρ) (ix2 r c) = 0 := by
  rw [select_apply, colIs_apply hι k hk r c, if_pos hc, select_one, broadcast_apply]
  exact Ideal.ofBits_zero_f32

/-- The tile rotated along its COLUMNS by `s` and zeroed on column `k`, read off column `k`: the entry `s` columns back. -/
theorem colShift_unmasked (hι : Tile.Iotas .tc 32 [1]) (hρ : Tile.Rotates 1 none) (s k : ℕ) (hk : k < 1024) (hs : s < 1024)
    (w : FVec Ideal Tile .f32) (r c c' : Fin 1024) (hc : c.val ≠ k) (hc' : c'.val = (c.val + 1024 - s) % 1024) :
    select (cmpi .eq (iota .tc Tile 32 [1] hι) (broadcast Tile (BitVec.ofNat 32 k)))
        (broadcast Tile (Scalar.ofBits (F := Ideal) .f32 0x00000000#32))
        (dynamicRotate 1 (BitVec.ofNat 32 s) none w hρ) (ix2 r c) = w (ix2 r c') := by
  rw [select_apply, colIs_apply hι k hk r c, if_neg hc, select_zero]
  refine dynamicRotate_apply 1 _ w hρ (ix2 r c) (ix2 r c') (fun b => ?_)
  match b with
  | ⟨0, _⟩ =>
    show r.val = if (0 : Fin 2) = 1 then (r.val + 1024 - (BitVec.ofNat 32 s).toNat % 1024) % 1024 else r.val
    rw [if_neg (by decide)]
  | ⟨1, _⟩ =>
    show c'.val = if (1 : Fin 2) = 1 then (c.val + 1024 - (BitVec.ofNat 32 s).toNat % 1024) % 1024 else c.val
    rw [if_pos rfl, toNat_shift hs, hc']

end Cert.EdgeMask
-- ==== Proof.Window.lean ====
/-
  The order-theoretic heart of the edge-mask certificate: a 3×3 neighbourhood reduced by a lattice operation
  (minimum or maximum) may be swept in any order. Two sweeps are compared here.

  * `win9 op e Z r c` — the nine entries `Z (r + dr) (c + dc)`, `dr, dc ∈ {0, 1, 2}`, folded from the left in
    row-major order starting from `e` (a sliding window over a table `Z` indexed by natural numbers);
  * `sep3 op Z r c` — the separable sweep: first each of the three columns `c`, `c + 1`, `c + 2` is reduced over its three
    rows (`col3`: the middle row, then the row above it, then the row below it), then the middle column's value is
    combined with the left column's and then with the right column's.

  For `min` started from `⊤` and for `max` started from `⊥` the two agree: `min` and `max` are associative and
  commutative, and the starting value is their identity. Nothing here needs the entries to be finite.
-/
import Mathlib.Order.Lattice
import Mathlib.Order.BoundedOrder.Basic
import Mathlib.Order.MinMax

namespace Cert.EdgeMask

variable {α : Type*}

/-- One column of the neighbourhood reduced over its three rows: the middle row `r + 1` first, then the row above it
    (`r`), then the row below it (`r + 2`). -/
def col3 (op : α → α → α) (Z : ℕ → ℕ → α) (r c : ℕ) : α :=
  op (op (Z (r + 1) c) (Z r c)) (Z (r + 2) c)

/-- The separable sweep of the neighbourhood whose top-left entry is `(r, c)`: the middle column `c + 1`, then the
    column to its left (`c`), then the column to its right (`c + 2`), each already reduced over its rows. -/
def sep3 (op : α → α → α) (Z : ℕ → ℕ → α) (r c : ℕ) : α :=
  op (op (col3 op Z r (c + 1)) (col3 op Z r c)) (col3 op Z r (c + 2))

/-- The neighbourhood folded from the left in row-major order from the starting value `e`. -/
def win9 (op : α → α → α) (e : α) (Z : ℕ → ℕ → α) (r c : ℕ) : α :=
  op (op (op (op (op (op (op (op (op e (Z r c)) (Z r (c + 1))) (Z r (c + 2)))
    (Z (r + 1) c)) (Z (r + 1) (c + 1))) (Z (r + 1) (c + 2)))
    (Z (r + 2) c)) (Z (r + 2) (c + 1))) (Z (r + 2) (c + 2))

/-- The least of nine entries does not depend on the order they are visited in, and `⊤` is no entry's rival. -/
theorem sep3_min_eq_win9 [LinearOrder α] [OrderTop α] (Z : ℕ → ℕ → α) (r c : ℕ) :
    sep3 min Z r c = win9 min ⊤ Z r c := by
  unfold sep3 col3 win9
  rw [min_eq_right (le_top : Z r c ≤ ⊤)]
  simp only [min_assoc, min_comm, min_left_comm]

/-- The greatest of nine entries does not depend on the order they are visited in, and `⊥` is no entry's rival. -/
theorem sep3_max_eq_win9 [LinearOrder α] [OrderBot α] (Z : ℕ → ℕ → α) (r c : ℕ) :
    sep3 max Z r c = win9 max ⊥ Z r c := by
  unfold sep3 col3 win9
  rw [max_eq_right (bot_le : ⊥ ≤ Z r c)]
  simp only [max_assoc, max_comm, max_left_comm]

/-- A column of three equal entries `z`, under an idempotent operation, reduces to `z`. -/
theorem col3_const {op : α → α → α} {z : α} (hz : op z z = z) (Z : ℕ → ℕ → α) (r c : ℕ)
    (h0 : Z r c = z) (h1 : Z (r + 1) c = z) (h2 : Z (r + 2) c = z) : col3 op Z r c = z := by
  unfold col3
  rw [h0, h1, h2, hz, hz]

end Cert.EdgeMask
-- ==== Proof.Spec.lean ====
/-
  What the edge mask IS, as one function of an image: the specification both programs are measured against.

  An image `v` of 1024×1024 extended reals is given a one-pixel BORDER OF ZEROS (`bordered v`, a table on natural
  coordinates: entry `(r, c)` is the image's entry `(r − 1, c − 1)` for `1 ≤ r, c ≤ 1024` and zero elsewhere). The mask at
  pixel `(r, c)` looks at the 3×3 neighbourhood of the bordered table whose top-left entry is `(r, c)` — the pixel and
  its eight neighbours, zeros standing in for neighbours outside the image — takes its greatest entry minus its least,
  and answers 1 where that difference exceeds the threshold word and 0 elsewhere (`edge`); `mask` is that, image by image, over the whole array. The neighbourhood's greatest
  and least entries are written in the separable form of Window.lean; `edge_eq_window` restates them as the row-major
  sliding window.
-/
import proofs.«105019_j1726576855683_2_alg».proof.Proof.Window
import Idealize.ShloMosaic.PureOps.Ideal
import Idealize.ShloMosaic.Lib.ValueIdx

noncomputable section

open Idealize.ShloMosaic Idealize.ShloMosaic.ValueIdx

namespace Cert.EdgeMask

/-- The image with a one-pixel border of zeros, on natural coordinates (zero everywhere outside the image). -/
def bordered (v : Fin 1024 → Fin 1024 → EReal) (r c : ℕ) : EReal :=
  if h : (1 ≤ r ∧ r ≤ 1024) ∧ (1 ≤ c ∧ c ≤ 1024) then v ⟨r - 1, by omega⟩ ⟨c - 1, by omega⟩ else 0

/-- Inside the border the table is the image, one place down and one place right. -/
theorem bordered_inside (v : Fin 1024 → Fin 1024 → EReal) (r c : Fin 1024) :
    bordered v (r.val + 1) (c.val + 1) = v r c := by
  have hr : r.val < 1024 := r.isLt
  have hc : c.val < 1024 := c.isLt
  unfold bordered
  rw [dif_pos ⟨⟨by omega, by omega⟩, ⟨by omega, by omega⟩⟩]
  rfl

/-- The same with the table's coordinates named. -/
theorem bordered_of_eq (v : Fin 1024 → Fin 1024 → EReal) (r c : ℕ) (r' c' : Fin 1024) (hr : r = r'.val + 1)
    (hc : c = c'.val + 1) : bordered v r c = v r' c' := by
  subst hr hc
  exact bordered_inside v r' c'

theorem bordered_row_first (v : Fin 1024 → Fin 1024 → EReal) (c : ℕ) : bordered v 0 c = 0 :=
  dif_neg (by omega)

theorem bordered_row_last (v : Fin 1024 → Fin 1024 → EReal) (c : ℕ) : bordered v 1025 c = 0 :=
  dif_neg (by omega)

theorem bordered_col_first (v : Fin 1024 → Fin 1024 → EReal) (r : ℕ) : bordered v r 0 = 0 :=
  dif_neg (by omega)

theorem bordered_col_last (v : Fin 1024 → Fin 1024 → EReal) (r : ℕ) : bordered v r 1025 = 0 :=
  dif_neg (by omega)

/-- A column of the border reduces to zero under `min` and under `max`: all three of its entries are zero. -/
theorem col3_border_first {op : EReal → EReal → EReal} (hz : op 0 0 = 0) (v : Fin 1024 → Fin 1024 → EReal) (r : ℕ) :
    col3 op (bordered v) r 0 = 0 :=
  col3_const hz _ r 0 (bordered_col_first v _) (bordered_col_first v _) (bordered_col_first v _)

theorem col3_border_last {op : EReal → EReal → EReal} (hz : op 0 0 = 0) (v : Fin 1024 → Fin 1024 → EReal) (r : ℕ) :
    col3 op (bordered v) r 1025 = 0 :=
  col3_const hz _ r 1025 (bordered_col_last v _) (bordered_col_last v _) (bordered_col_last v _)

/-- 1 where the difference `d` exceeds the threshold (the float word `0x3DCCCCCD`, the binary32 nearest one tenth), else 0:
    the comparison's bit read as a number. -/
def above (d : EReal) : EReal :=
  FloatOps.uitofp (F := Ideal) .f32 (FloatOps.cmpf (F := Ideal) (φ := .f32) .ogt d (Ideal.ofBits .f32 0x3DCCCCCD#32))

/-- The edge mask of the image `v` at pixel `(r, c)`. -/
def edge (v : Fin 1024 → Fin 1024 → EReal) (r c : ℕ) : EReal :=
  above (sep3 max (bordered v) r c - sep3 min (bordered v) r c)

/-- The same through the row-major sliding window: the maximum swept from `⊥`, the minimum from `⊤`. -/
theorem edge_eq_window (v : Fin 1024 → Fin 1024 → EReal) (r c : ℕ) :
    edge v r c = above (win9 max ⊥ (bordered v) r c - win9 min ⊤ (bordered v) r c) := by
  unfold edge
  rw [sep3_max_eq_win9, sep3_min_eq_win9]

/-- The argument and the result: 16 images of one channel, 1024×1024. -/
abbrev Arr : Shape := ⟨4, ![16, 1, 1024, 1024]⟩

/-- Batch element `b` of the array, as an image. -/
abbrev slice (x : Arr.Idx → EReal) (b : Fin 16) : Fin 1024 → Fin 1024 → EReal := fun r c => x (ix4 b 0 r c)

/-- THE RESULT as one function of the argument array: at index `(b, 0, r, c)` the edge mask of image `b` at pixel `(r, c)`. -/
def mask (x : Arr.Idx → EReal) : Arr.Idx → EReal := fun i => edge (slice x (i 0)) (i 2).val (i 3).val

theorem mask_apply (x : Arr.Idx → EReal) (b : Fin 16) (o : Fin 1) (r c : Fin 1024) :
    mask x (ix4 b o r c) = edge (slice x b) r.val c.val := rfl

end Cert.EdgeMask
-- ==== Proof.KernelBlock.lean ====
/-
  What one grid point of the kernel leaves in its output block, as the edge mask of its input block.

  The body loads a 1024×1024 image `P` (one batch element), and builds from it, by rotations and border masks, the values a
  3×3 neighbourhood needs. Written against the image bordered by zeros (Spec.lean's `bordered`):

  * the tile itself is the table one place down and right; the tile rotated one row forward, zeroed on row 0, is the
    table's row above (`rowAbove`); rotated one row back, zeroed on the last row, the row below (`rowBelow`): the rows a
    rotation wraps around are exactly the ones the masks overwrite with the border's zero;
  * their `min` (and `max`) is a column of the neighbourhood reduced over its rows, `col3`, at the centre column;
  * the same rotation and mask along the columns moves that to the left and right columns — a column of the border reduces
    to zero, which is what the masks put there (`colLeft_apply`, `colRight_apply`);
  * so the body's minimum and maximum are the separable sweep `sep3`, and the stored value — the comparison's bit widened to
    a word and converted — is the mask `edge` (`block_apply`).
-/
import proofs.«105019_j1726576855683_2_alg».proof.Proof.Gen.KernelIdeal.Value
import proofs.«105019_j1726576855683_2_alg».proof.Proof.Masked
import proofs.«105019_j1726576855683_2_alg».proof.Proof.Spec
import Idealize.ShloMosaic.Lib.Pipeline.Value
import Idealize.ShloMosaic.Lib.KernelVsHost

noncomputable section

open Idealize.ShloMosaic Idealize.ShloMosaic.ValueIdx

namespace Cert.EdgeMask.Kernel

open Cert.KernelIdeal Cert.KernelIdeal.Gen Cert.KernelIdeal.Value Cert.EdgeMask

/-- The loaded block as an image: the one batch element and the one channel dropped. -/
abbrev img (P : Vec Ideal S1x1x1024x1024 .f32) : Fin 1024 → Fin 1024 → EReal := fun r c => P (ix4 0 0 r c)

/-- The tile is the bordered table one place down and one place right. -/
theorem tile_apply (P : Vec Ideal S1x1x1024x1024 .f32) (r c : Fin 1024) :
    k0_pay2 P (ix2 r c) = bordered (img P) (r.val + 1) (c.val + 1) := by
  refine Eq.trans ?_ (bordered_inside (img P) r c).symm
  show shapeCast S1024x1024 P shapeCasts_S1x1x1024x1024_S1024x1024 (ix2 r c) = P (ix4 0 0 r c)
  refine shapeCast_apply _ _ (ix2 r c) (ix4 0 0 r c) ?_
  rw [Shape.rowMajor_val_four, Shape.rowMajor_val_two]
  show ((0 * 1 + 0) * 1024 + r.val) * 1024 + c.val = r.val * 1024 + c.val
  omega

/-- The tile rotated one row forward and zeroed on the first row: the table's row above. -/
theorem rowAbove (P : Vec Ideal S1x1x1024x1024 .f32) (r c : Fin 1024) :
    k0_pay3 P (ix2 r c) = bordered (img P) r.val (c.val + 1) := by
  have hr : r.val < 1024 := r.isLt
  unfold k0_pay3
  rcases Nat.eq_zero_or_pos r.val with h0 | hpos
  · refine (rowShift_masked iota_S1024x1024_d0_w32 rotates_S1024x1024_d0 1 0 (by omega) (k0_pay2 P) r c h0).trans ?_
    rw [h0, bordered_row_first]
  · refine (rowShift_unmasked iota_S1024x1024_d0_w32 rotates_S1024x1024_d0 1 0 (by omega) (by omega) (k0_pay2 P) r c
      ⟨r.val - 1, by omega⟩ (by omega) (by show r.val - 1 = (r.val + 1024 - 1) % 1024; omega)).trans ?_
    rw [tile_apply]
    show bordered (img P) (r.val - 1 + 1) (c.val + 1) = _
    rw [Nat.sub_add_cancel hpos]

/-- The tile rotated one row back and zeroed on the last row: the table's row below. -/
theorem rowBelow (P : Vec Ideal S1x1x1024x1024 .f32) (r c : Fin 1024) :
    k0_pay4 P (ix2 r c) = bordered (img P) (r.val + 2) (c.val + 1) := by
  have hr : r.val < 1024 := r.isLt
  unfold k0_pay4
  by_cases h : r.val = 1023
  · refine (rowShift_masked iota_S1024x1024_d0_w32 rotates_S1024x1024_d0 1023 1023 (by omega) (k0_pay2 P) r c h).trans ?_
    rw [h, bordered_row_last]
  · refine (rowShift_unmasked iota_S1024x1024_d0_w32 rotates_S1024x1024_d0 1023 1023 (by omega) (by omega) (k0_pay2 P) r c
      ⟨r.val + 1, by omega⟩ h (by show r.val + 1 = (r.val + 1024 - 1023) % 1024; omega)).trans ?_
    rw [tile_apply]

/-- The row pass with `min`: the centre column of the neighbourhood reduced over its rows. -/
abbrev rowMin (P : Vec Ideal S1x1x1024x1024 .f32) : FVec Ideal S1024x1024 .f32 :=
  minimumf (minimumf (k0_pay2 P) (k0_pay3 P)) (k0_pay4 P)

theorem rowMin_apply (P : Vec Ideal S1x1x1024x1024 .f32) (r c : Fin 1024) :
    rowMin P (ix2 r c) = col3 min (bordered (img P)) r.val (c.val + 1) := by
  show min (min (k0_pay2 P (ix2 r c)) (k0_pay3 P (ix2 r c))) (k0_pay4 P (ix2 r c)) = _
  rw [tile_apply, rowAbove, rowBelow]
  rfl

/-- The row pass with `max` is the body's `%16`. -/
theorem rowMax_apply (P : Vec Ideal S1x1x1024x1024 .f32) (r c : Fin 1024) :
    k0_pay5 P (ix2 r c) = col3 max (bordered (img P)) r.val (c.val + 1) := by
  show max (max (k0_pay2 P (ix2 r c)) (k0_pay3 P (ix2 r c))) (k0_pay4 P (ix2 r c)) = _
  rw [tile_apply, rowAbove, rowBelow]
  rfl

/-- A tile rotated one column forward and zeroed on the first column. -/
abbrev colLeft (w : FVec Ideal S1024x1024 .f32) : FVec Ideal S1024x1024 .f32 :=
  select (cmpi .eq (iota .tc S1024x1024 32 [1] iota_S1024x1024_d1_w32) (broadcast S1024x1024 0#32))
    (broadcast S1024x1024 (Scalar.ofBits .f32 0x00000000#32)) (dynamicRotate 1 1#32 none w rotates_S1024x1024_d1)

/-- A tile rotated one column back and zeroed on the last column. -/
abbrev colRight (w : FVec Ideal S1024x1024 .f32) : FVec Ideal S1024x1024 .f32 :=
  select (cmpi .eq (iota .tc S1024x1024 32 [1] iota_S1024x1024_d1_w32) (broadcast S1024x1024 1023#32))
    (broadcast S1024x1024 (Scalar.ofBits .f32 0x00000000#32)) (dynamicRotate 1 1023#32 none w rotates_S1024x1024_d1)

/-- If a tile holds the centre column's reduction, its left shift holds the left column's: off the first column it is
    the neighbour's value, and on it the mask's zero is what a column of the border reduces to. -/
theorem colLeft_apply (op : EReal → EReal → EReal) (hz : op 0 0 = 0) (P : Vec Ideal S1x1x1024x1024 .f32)
    (w : FVec Ideal S1024x1024 .f32)
    (hw : ∀ r c : Fin 1024, w (ix2 r c) = col3 op (bordered (img P)) r.val (c.val + 1)) (r c : Fin 1024) :
    colLeft w (ix2 r c) = col3 op (bordered (img P)) r.val c.val := by
  have hc : c.val < 1024 := c.isLt
  rcases Nat.eq_zero_or_pos c.val with h0 | hpos
  · refine (colShift_masked iota_S1024x1024_d1_w32 rotates_S1024x1024_d1 1 0 (by omega) w r c h0).trans ?_
    rw [h0, col3_border_first hz]
  · refine (colShift_unmasked iota_S1024x1024_d1_w32 rotates_S1024x1024_d1 1 0 (by omega) (by omega) w r c
      ⟨c.val - 1, by omega⟩ (by omega) (by show c.val - 1 = (c.val + 1024 - 1) % 1024; omega)).trans ?_
    rw [hw]
    show col3 op (bordered (img P)) r.val (c.val - 1 + 1) = _
    rw [Nat.sub_add_cancel hpos]

/-- And its right shift holds the right column's. -/
theorem colRight_apply (op : EReal → EReal → EReal) (hz : op 0 0 = 0) (P : Vec Ideal S1x1x1024x1024 .f32)
    (w : FVec Ideal S1024x1024 .f32)
    (hw : ∀ r c : Fin 1024, w (ix2 r c) = col3 op (bordered (img P)) r.val (c.val + 1)) (r c : Fin 1024) :
    colRight w (ix2 r c) = col3 op (bordered (img P)) r.val (c.val + 2) := by
  have hc : c.val < 1024 := c.isLt
  by_cases h : c.val = 1023
  · refine (colShift_masked iota_S1024x1024_d1_w32 rotates_S1024x1024_d1 1023 1023 (by omega) w r c h).trans ?_
    rw [h, col3_border_last hz]
  · refine (colShift_unmasked iota_S1024x1024_d1_w32 rotates_S1024x1024_d1 1023 1023 (by omega) (by omega) w r c
      ⟨c.val + 1, by omega⟩ h (by show c.val + 1 = (c.val + 1024 - 1023) % 1024; omega)).trans ?_
    rw [hw]

/-- The body's minimum over the neighbourhood is the separable sweep. -/
theorem least_apply (P : Vec Ideal S1x1x1024x1024 .f32) (r c : Fin 1024) :
    k0_pay6 P (ix2 r c) = sep3 min (bordered (img P)) r.val c.val := by
  show min (min (rowMin P (ix2 r c)) (colLeft (rowMin P) (ix2 r c))) (colRight (rowMin P) (ix2 r c)) = _
  rw [rowMin_apply, colLeft_apply min (min_self 0) P (rowMin P) (rowMin_apply P),
    colRight_apply min (min_self 0) P (rowMin P) (rowMin_apply P)]
  rfl

/-- The bit of the comparison widened to a word and converted signed is the bit converted: the stored value is `above`. -/
theorem stored_eq_above (d : EReal) :
    FloatOps.sitofp (F := Ideal) .f32
      ((FloatOps.cmpf (F := Ideal) (φ := .f32) .ogt d (Scalar.ofBits (F := Ideal) .f32 0x3DCCCCCD#32)).setWidth 32) = above d := by
  unfold above
  show ((((Ideal.cmp .ogt d (Ideal.ofBits .f32 0x3DCCCCCD#32)).setWidth 32).toInt : ℝ) : EReal)
    = (((Ideal.cmp .ogt d (Ideal.ofBits .f32 0x3DCCCCCD#32)).toNat : ℝ) : EReal)
  rw [toInt_setWidth_bit]
  norm_cast

/-- WHAT THE BODY LEAVES IN ITS OUTPUT BLOCK, index by index: the edge mask of the loaded image. -/
theorem block_apply (P : Vec Ideal S1x1x1024x1024 .f32) (a b : Fin 1) (r c : Fin 1024) :
    E1 P (ix4 a b r c) = edge (img P) r.val c.val := by
  have e0 : ix1_0 (ix4 a b r c) = ix4 0 0 r c := by
    funext d; match d with | ⟨0, _⟩ => rfl | ⟨1, _⟩ => rfl | ⟨2, _⟩ => rfl | ⟨3, _⟩ => rfl
  have e1 : ix1_1 (ix4 a b r c) = ix2 r c := by funext d; match d with | ⟨0, _⟩ => rfl | ⟨1, _⟩ => rfl
  have e2 : ix1_2 (ix4 a b r c) = ix2 r c := by funext d; match d with | ⟨0, _⟩ => rfl | ⟨1, _⟩ => rfl
  have e3 : ix1_3 (ix4 a b r c) = ix2 r c := by funext d; match d with | ⟨0, _⟩ => rfl | ⟨1, _⟩ => rfl
  have e4 : ix1_4 (ix4 a b r c) = ix2 r c := by funext d; match d with | ⟨0, _⟩ => rfl | ⟨1, _⟩ => rfl
  have e5 : ix1_5 (ix4 a b r c) = ix2 r c := by funext d; match d with | ⟨0, _⟩ => rfl | ⟨1, _⟩ => rfl
  have e6 : ix1_6 (ix4 a b r c) = ix2 r c := by funext d; match d with | ⟨0, _⟩ => rfl | ⟨1, _⟩ => rfl
  have hP : P (ix4 0 0 r c) = bordered (img P) (r.val + 1) (c.val + 1) := (bordered_inside (img P) r c).symm
  have h7 : k0_pay7 P (ix2 r c) = col3 max (bordered (img P)) r.val c.val :=
    colLeft_apply max (max_self 0) P (k0_pay5 P) (rowMax_apply P) r c
  have h89 : Scalar.select (k0_pay9 (ix2 r c)) (Scalar.ofBits (F := Ideal) .f32 0x00000000#32) (k0_pay8 P (ix2 r c))
      = col3 max (bordered (img P)) r.val (c.val + 2) :=
    colRight_apply max (max_self 0) P (k0_pay5 P) (rowMax_apply P) r c
  show FloatOps.sitofp (F := Ideal) .f32 ((FloatOps.cmpf (F := Ideal) (φ := .f32) .ogt
      (FloatOps.subf (F := Ideal) (φ := .f32)
        (max (max (max (max (P (ix1_0 (ix4 a b r c))) (k0_pay3 P (ix1_1 (ix4 a b r c)))) (k0_pay4 P (ix1_2 (ix4 a b r c))))
          (k0_pay7 P (ix1_3 (ix4 a b r c))))
          (Scalar.select (k0_pay9 (ix1_4 (ix4 a b r c))) (Scalar.ofBits (F := Ideal) .f32 0x00000000#32) (k0_pay8 P (ix1_5 (ix4 a b r c)))))
        (k0_pay6 P (ix1_6 (ix4 a b r c))))
      (Scalar.ofBits (F := Ideal) .f32 0x3DCCCCCD#32)).setWidth 32) = _
  rw [e0, e1, e2, e3, e4, e5, e6, hP, rowAbove, rowBelow, h7, h89, least_apply]
  exact stored_eq_above _

end Cert.EdgeMask.Kernel
-- ==== Proof.KernelArray.lean ====
/-
  The kernel's result array as the edge mask of its argument array.

  Grid point `t` (one of 16) reads block `t` of the argument — image `t`, all of its channel, rows and columns — and writes
  block `t` of the result. By KernelBlock.lean what it writes is the edge mask of the image it read; an index `y` of a block
  sits at index `(t, 0, y₂, y₃)` of its array (`in_block`, `out_block`, from the index maps decided over the grid), so what
  point `t` writes back is block `t` of `mask` of the argument array (`flushed_eq`). The 16 blocks cover the result array —
  index `i` lies in block `i₀` (`covered`) — so after the run the result array is `mask` of the argument (`final`, `run`).
-/
import proofs.«105019_j1726576855683_2_alg».proof.Proof.Gen.KernelIdeal.Value
import proofs.«105019_j1726576855683_2_alg».proof.Proof.KernelBlock
import proofs.«105019_j1726576855683_2_alg».proof.Proof.Spec
import Idealize.ShloMosaic.Lib.Pipeline.Value

noncomputable section

open Idealize.ShloMosaic Idealize.ShloMosaic.TcCoe Idealize.ShloMosaic.ValueIdx Idealize.SL.Sem
open Idealize.ShloMosaic.Pipeline (Dat)

namespace Cert.EdgeMask.Kernel

open Cert.KernelIdeal Cert.KernelIdeal.Gen Cert.KernelIdeal.Value Cert.EdgeMask

variable (m : (ℓ : Loc nD τ sig) → Buf (Elt Ideal) ℓ) (ρ : Dev nD → PrngReg)

theorem zero_offsets : (![0, 0, 0, 0] : Fin 4 → Nat) = fun _ => 0 := funext fun a => by fin_cases a <;> rfl

/-- The index maps, decided over the grid: point `t`'s input block and output block are both block `(t, 0, 0, 0)`. -/
theorem block_index : ∀ t : Fin cfg0.N,
    win0_0.index t (0 : Fin 4) = t.val ∧ win0_0.index t (1 : Fin 4) = 0 ∧ win0_0.index t (2 : Fin 4) = 0
    ∧ win0_0.index t (3 : Fin 4) = 0
    ∧ win0_1.index t (0 : Fin 4) = t.val ∧ win0_1.index t (1 : Fin 4) = 0 ∧ win0_1.index t (2 : Fin 4) = 0
    ∧ win0_1.index t (3 : Fin 4) = 0 :=
  (by decide +kernel : ∀ t : Fin grid0.N, _)

theorem point_lt (t : Fin cfg0.N) : t.val < 16 :=
  Nat.lt_of_lt_of_eq t.isLt (N_0 : cfg0.N = 16)

/-- Where index `y` of point `t`'s INPUT block sits in the argument array. -/
theorem in_block (t : Fin cfg0.N) (y : S1x1x1024x1024.Idx) :
    ((cfg0.win 0).blk t).view.emb y = ix4 (⟨t.val, point_lt t⟩ : Fin 16) (0 : Fin 1) (y 2) (y 3) := by
  obtain ⟨e0, e1, e2, e3, -, -, -, -⟩ := block_index t
  have h0 : (y 0).val < 1 := (y 0).isLt
  have h1 : (y 1).val < 1 := (y 1).isLt
  funext a
  apply Fin.ext
  match a with
  | ⟨0, _⟩ => show win0_0.index t (0 : Fin 4) * 1 + 1 * (y 0).val = t.val; omega
  | ⟨1, _⟩ => show win0_0.index t (1 : Fin 4) * 1 + 1 * (y 1).val = 0; omega
  | ⟨2, _⟩ => show win0_0.index t (2 : Fin 4) * 1024 + 1 * (y 2).val = (y 2).val; omega
  | ⟨3, _⟩ => show win0_0.index t (3 : Fin 4) * 1024 + 1 * (y 3).val = (y 3).val; omega

/-- Where index `y` of point `t`'s OUTPUT block sits in the result array. -/
theorem out_block (t : Fin cfg0.N) (y : S1x1x1024x1024.Idx) :
    ((cfg0.win 1).blk t).view.emb y = ix4 (⟨t.val, point_lt t⟩ : Fin 16) (0 : Fin 1) (y 2) (y 3) := by
  obtain ⟨-, -, -, -, e0, e1, e2, e3⟩ := block_index t
  have h0 : (y 0).val < 1 := (y 0).isLt
  have h1 : (y 1).val < 1 := (y 1).isLt
  funext a
  apply Fin.ext
  match a with
  | ⟨0, _⟩ => show win0_1.index t (0 : Fin 4) * 1 + 1 * (y 0).val = t.val; omega
  | ⟨1, _⟩ => show win0_1.index t (1 : Fin 4) * 1 + 1 * (y 1).val = 0; omega
  | ⟨2, _⟩ => show win0_1.index t (2 : Fin 4) * 1024 + 1 * (y 2).val = (y 2).val; omega
  | ⟨3, _⟩ => show win0_1.index t (3 : Fin 4) * 1024 + 1 * (y 3).val = (y 3).val; omega

/-- The image point `t` loads is image `t` of the argument array. -/
theorem loaded_image (c : Dev nD) (t : Fin cfg0.N) :
    img (iblk m c 0 t) = slice (V m c main_arg0) ⟨t.val, point_lt t⟩ := by
  funext r q
  show iblk m c 0 t (ix4 0 0 r q) = V m c main_arg0 (ix4 (⟨t.val, point_lt t⟩ : Fin 16) 0 r q)
  unfold iblk
  rw [View.read_apply]
  show V m c main_arg0 (((cfg0.win 0).blk t).view.emb (ix4 0 0 r q)) = _
  rw [in_block]
  rfl

/-- The body's block at any of its indices, by coordinates. -/
theorem block_apply' (P : Vec Ideal S1x1x1024x1024 .f32) (y : S1x1x1024x1024.Idx) :
    E1 P y = edge (img P) (y 2).val (y 3).val := by
  obtain ⟨a, b, r, q, rfl⟩ : ∃ (a b : Fin 1) (r q : Fin 1024), y = ix4 a b r q := ⟨y 0, y 1, y 2, y 3, eq_ix4 y⟩
  exact block_apply P a b r q

/-- WHAT POINT `t` WRITES BACK is block `t` of the edge mask of the argument array. -/
theorem flushed_eq (c : Dev nD) (t : Fin cfg0.N) :
    (dats m 0 c).flushed 1 t = ((cfg0.win 1).blk t).view.read (Elt Ideal) (mask (V m c main_arg0)) := by
  show (cfg0.win 1).cut (grid0.coords t) ((dats m 0 c).after 1 t) = _
  rw [after0_1]
  unfold out0_1
  simp only [View.ld_unit_zero (S := S1x1x1024x1024) zero_offsets]
  funext y
  show View.canon ([⟨r0_0, k0_pay1 (k0_pay5 (iblk m c 0 t)) (k0_pay6 (iblk m c 0 t)) (k0_pay7 (iblk m c 0 t))
      (k0_pay8 (iblk m c 0 t)) k0_pay9⟩] : List (View.Piece (Elt Ideal) S1x1x1024x1024 .f32)) y
    = mask (V m c main_arg0) (((cfg0.win 1).blk t).view.emb y)
  refine (canon1_eq (iblk m c 0 t) y).trans ?_
  refine (block_apply' (iblk m c 0 t) y).trans ?_
  rw [out_block, loaded_image]
  rfl

/-- An index of the result array is in point `t`'s block iff each coordinate is in the block's range on its axis. -/
theorem mem_block (t : Fin cfg0.N) (i : S16x1x1024x1024.Idx) :
    i ∈ ((cfg0.win 1).blk t).view.set ↔ ∀ a : Fin 4, win0_1.index t a * S1x1x1024x1024.size a ≤ (i a).val
      ∧ (i a).val < win0_1.index t a * S1x1x1024x1024.size a + S1x1x1024x1024.size a := by
  show i ∈ ((View.whole main_v0).slice (win0_1.rect t)).set ↔ _
  rw [View.set_slice_whole, Rect.mem_set_unit]
  exact Iff.rfl

/-- THE BLOCKS COVER THE RESULT ARRAY: index `i` lies in the block of the point numbered by its batch coordinate. -/
theorem covered (i : S16x1x1024x1024.Idx) :
    ∃ t : Fin cfg0.N, (cfg0.win 1).flush t = true ∧ i ∈ ((cfg0.win 1).blk t).view.set := by
  have hi0 : (i 0).val < 16 := (i 0).isLt
  have hi1 : (i 1).val < 1 := (i 1).isLt
  have hi2 : (i 2).val < 1024 := (i 2).isLt
  have hi3 : (i 3).val < 1024 := (i 3).isLt
  let t : Fin cfg0.N := ⟨(i 0).val, by rw [show cfg0.N = 16 from N_0]; exact hi0⟩
  obtain ⟨-, -, -, -, e0, e1, e2, e3⟩ := block_index t
  have ht : t.val = (i 0).val := rfl
  refine ⟨t, flush0_1 t, ?_⟩
  rw [mem_block]
  intro a
  match a with
  | ⟨0, _⟩ =>
    show win0_1.index t (0 : Fin 4) * 1 ≤ (i 0).val ∧ (i 0).val < win0_1.index t (0 : Fin 4) * 1 + 1
    omega
  | ⟨1, _⟩ =>
    show win0_1.index t (1 : Fin 4) * 1 ≤ (i 1).val ∧ (i 1).val < win0_1.index t (1 : Fin 4) * 1 + 1
    omega
  | ⟨2, _⟩ =>
    show win0_1.index t (2 : Fin 4) * 1024 ≤ (i 2).val ∧ (i 2).val < win0_1.index t (2 : Fin 4) * 1024 + 1024
    omega
  | ⟨3, _⟩ =>
    show win0_1.index t (3 : Fin 4) * 1024 ≤ (i 3).val ∧ (i 3).val < win0_1.index t (3 : Fin 4) * 1024 + 1024
    omega

/-- THE RESULT ARRAY after the run is the edge mask of the argument array as launched. -/
theorem final (c : Dev nD) :
    (dats m 0 c).arrAt 1 cfg0.N = mask (m ((c : Thread nD τ).loc main_arg0)) :=
  (dats m 0 c).arrAt_eq_of_cover 1 (mask (V m c main_arg0)) (fun t _ => flushed_eq m c t) covered

/-- The kernel's run, read: the result array at `mask` of the argument array, the argument unchanged. -/
theorem run : θ_run defs (onTc (τ := τ) (main (F := Ideal))) ⟨m, fun _ => 0, ρ⟩ fun r => ∀ c : Dev nD,
      r.2.mem ((c : Thread nD τ).loc main_v0) = mask (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.EdgeMask.Kernel
-- ==== Proof.LibReduceWindow.lean ====
/-
  A sliding-window reduction read at one index of its result, when every position of the window lies inside the operand
  (no padding is met): the left fold, over the window's positions in row-major order and from the initial value, of the
  operand's entries under the window. The caller names each position's entry `T n` and shows that the operand, at the
  index whose coordinate on each axis is the result's coordinate times the stride plus the position's offset (less the
  low padding), is that entry.

  A general lemma about `Host.reduceWindow` (any shapes, window, strides and operation); it does not depend on any program.
-/
import Idealize.ShloMosaic.PureOps.Contract

open Idealize.ShloMosaic

namespace Cert.EdgeMask

/-- `Host.reduceWindow` at the result index `j`, every window position inside the operand (`hin`), the operand's entry
    under position `n` named `T n` (`hT`): the fold of `f` over the positions from the initial value. -/
theorem reduceWindow_apply_of_inside {α : Type} {s t u : Shape} (f : α → α → α)
    (window strides lo hi : Fin s.rank → Nat) (x : s.Idx → α) (init : u.Idx → α)
    (h : s.ReduceWindows window strides lo hi t) (hu : 0 < u.numel) (j : t.Idx)
    (T : Fin (⟨s.rank, window⟩ : Shape).numel → α)
    (hin : ∀ (n : Fin (⟨s.rank, window⟩ : Shape).numel) (a : Fin s.rank),
      lo a ≤ (j (a.cast h.1.symm)).val * strides a + ((⟨s.rank, window⟩ : Shape).rowMajor.symm n a).val
      ∧ (j (a.cast h.1.symm)).val * strides a + ((⟨s.rank, window⟩ : Shape).rowMajor.symm n a).val - lo a < s.size a)
    (hT : ∀ (n : Fin (⟨s.rank, window⟩ : Shape).numel) (k : s.Idx),
      (∀ a, (k a).val + lo a
        = (j (a.cast h.1.symm)).val * strides a + ((⟨s.rank, window⟩ : Shape).rowMajor.symm n a).val) → x k = T n) :
    Host.reduceWindow f window strides lo hi x init h hu j
      = (List.finRange (⟨s.rank, window⟩ : Shape).numel).foldl (fun acc n => f acc (T n)) (init (Shape.Idx.first hu)) := by
  unfold Host.reduceWindow
  dsimp only
  refine congrArg (fun g => List.foldl g (init (Shape.Idx.first hu)) (List.finRange _)) (funext fun acc => funext fun n => ?_)
  rw [dif_pos (hin n)]
  refine congrArg (f acc) (hT n _ (fun a => ?_))
  have h1 := (hin n a).1
  show (j (a.cast h.1.symm)).val * strides a + ((⟨s.rank, window⟩ : Shape).rowMajor.symm n a).val - lo a + lo a = _
  omega

end Cert.EdgeMask
-- ==== Proof.RefValue.lean ====
/-
  The reference's result as the edge mask of its argument.

  The reference pads each image with one ring of zeros (the zero an integer constant converted), slides a 1×1×3×3 window
  over the padded array twice — the maximum from `−∞`, the minimum from `+∞` —, subtracts, compares with the threshold and
  converts the bit. Read at an index:

  * the padded array at `(b, 0, r, c)`, `r, c < 1026`, is Spec.lean's bordered table of image `b` (`padded_apply`);
  * a window never meets the window operation's own padding (none is asked for), so the reduction at `(b, 0, r, c)` is the
    row-major fold `win9` over the table's 3×3 neighbourhood at `(r, c)` (`window_apply`, over the general lemma of
    LibReduceWindow.lean; the nine positions' offsets are `n / 3` rows and `n % 3` columns, decided);
  * `−∞` and `+∞` are the extended reals' `⊥` and `⊤`, the identities of `max` and `min`;
  so the result is `mask` in its sliding-window form (`result_eq`).
-/
import proofs.«105019_j1726576855683_2_alg».proof.Proof.Gen.ReferenceIdeal.Read
import proofs.«105019_j1726576855683_2_alg».proof.Proof.Spec
import proofs.«105019_j1726576855683_2_alg».proof.Proof.LibReduceWindow
import Idealize.ShloMosaic.Lib.KernelVsHost

noncomputable section

open Idealize.ShloMosaic Idealize.ShloMosaic.ValueIdx

namespace Cert.EdgeMask.Reference

open Cert.ReferenceIdeal Cert.ReferenceIdeal.Read Cert.EdgeMask

/-- The window: one batch element, one channel, three rows, three columns. -/
abbrev W3 : Shape := ⟨4, ![1, 1, 3, 3]⟩

/-- Position `n` of the window in row-major order sits `n / 3` rows and `n % 3` columns from its corner. -/
theorem offsets : ∀ n : Fin W3.numel, (W3.rowMajor.symm n 0).val = 0 ∧ (W3.rowMajor.symm n 1).val = 0
    ∧ (W3.rowMajor.symm n 2).val = n.val / 3 ∧ (W3.rowMajor.symm n 3).val = n.val % 3 := by
  decide

/-- The padding value: the integer zero converted is the real zero. -/
theorem pad_value (i : S_.Idx) : val_main_call0_v0 (F := Ideal) i = 0 := by
  show (Scalar.sitofp .f32 0#32 : Ideal .f32) = 0
  exact sitofp_zero

/-- THE PADDED ARRAY at an index is the bordered table of its image. -/
theorem padded_apply (x : S16x1x1024x1024.Idx → EReal) (b : Fin 16) (o : Fin 1) (r c : Fin 1026) :
    val_main_v0 (F := Ideal) x (ix4 b o r c) = bordered (slice x b) r.val c.val := by
  have hr : r.val < 1026 := r.isLt
  have hc : c.val < 1026 := c.isLt
  have ho : o.val < 1 := o.isLt
  unfold val_main_v0
  by_cases h : (1 ≤ r.val ∧ r.val ≤ 1024) ∧ (1 ≤ c.val ∧ c.val ≤ 1024)
  · obtain ⟨⟨h1, h2⟩, ⟨h3, h4⟩⟩ := h
    refine (pad_apply_of_inside _ _ _ x _ _ _ (ix4 b o r c)
      (ix4 b 0 ⟨r.val - 1, by omega⟩ ⟨c.val - 1, by omega⟩) (fun a => ?_)).trans ?_
    · match a with
      | ⟨0, _⟩ => show b.val = 0 + b.val * (0 + 1); omega
      | ⟨1, _⟩ => show o.val = 0 + 0 * (0 + 1); omega
      | ⟨2, _⟩ => show r.val = 1 + (r.val - 1) * (0 + 1); omega
      | ⟨3, _⟩ => show c.val = 1 + (c.val - 1) * (0 + 1); omega
    · exact (bordered_of_eq (slice x b) r.val c.val ⟨r.val - 1, by omega⟩ ⟨c.val - 1, by omega⟩
        (by show r.val = r.val - 1 + 1; omega) (by show c.val = c.val - 1 + 1; omega)).symm
  · have hb : bordered (slice x b) r.val c.val = 0 := dif_neg h
    rw [hb]
    by_cases hrow : 1 ≤ r.val ∧ r.val ≤ 1024
    · have hcol : ¬(1 ≤ c.val ∧ c.val ≤ 1024) := fun hcol => h ⟨hrow, hcol⟩
      refine (pad_apply_of_not_inside _ _ _ x _ _ _ (ix4 b o r c) 3 ?_).trans (pad_value _)
      show ¬(1 ≤ c.val ∧ (c.val - 1) % (0 + 1) = 0 ∧ (c.val - 1) / (0 + 1) < 1024)
      omega
    · refine (pad_apply_of_not_inside _ _ _ x _ _ _ (ix4 b o r c) 2 ?_).trans (pad_value _)
      show ¬(1 ≤ r.val ∧ (r.val - 1) % (0 + 1) = 0 ∧ (r.val - 1) / (0 + 1) < 1024)
      omega

/-- THE WINDOW REDUCTION at an index: the row-major fold over the 3×3 neighbourhood of the table the operand is. -/
theorem window_apply (f : EReal → EReal → EReal) (X : S16x1x1026x1026.Idx → EReal) (init : S_.Idx → EReal)
    (h : S16x1x1026x1026.ReduceWindows ![1, 1, 3, 3] ![1, 1, 1, 1] ![0, 0, 0, 0] ![0, 0, 0, 0] S16x1x1024x1024)
    (hu : 0 < S_.numel) (b : Fin 16) (o : Fin 1) (r c : Fin 1024) (Z : ℕ → ℕ → EReal)
    (hX : ∀ r' c' : Fin 1026, X (ix4 b o r' c') = Z r'.val c'.val) :
    Host.reduceWindow f ![1, 1, 3, 3] ![1, 1, 1, 1] ![0, 0, 0, 0] ![0, 0, 0, 0] X init h hu (ix4 b o r c)
      = win9 f (init (Shape.Idx.first hu)) Z r.val c.val := by
  have hr : r.val < 1024 := r.isLt
  have hc : c.val < 1024 := c.isLt
  have ho : o.val < 1 := o.isLt
  have hb : b.val < 16 := b.isLt
  refine (reduceWindow_apply_of_inside f _ _ _ _ X init h hu (ix4 b o r c)
    (fun n => Z (r.val + n.val / 3) (c.val + n.val % 3)) (fun n a => ?_) (fun n k hk => ?_)).trans ?_
  · have hn : n.val < 9 := n.isLt
    obtain ⟨o0, o1, o2, o3⟩ := offsets n
    match a with
    | ⟨0, _⟩ =>
      show 0 ≤ b.val * 1 + (W3.rowMajor.symm n 0).val ∧ b.val * 1 + (W3.rowMajor.symm n 0).val - 0 < 16
      omega
    | ⟨1, _⟩ =>
      show 0 ≤ o.val * 1 + (W3.rowMajor.symm n 1).val ∧ o.val * 1 + (W3.rowMajor.symm n 1).val - 0 < 1
      omega
    | ⟨2, _⟩ =>
      show 0 ≤ r.val * 1 + (W3.rowMajor.symm n 2).val ∧ r.val * 1 + (W3.rowMajor.symm n 2).val - 0 < 1026
      omega
    | ⟨3, _⟩ =>
      show 0 ≤ c.val * 1 + (W3.rowMajor.symm n 3).val ∧ c.val * 1 + (W3.rowMajor.symm n 3).val - 0 < 1026
      omega
  · have hn : n.val < 9 := n.isLt
    obtain ⟨o0, o1, o2, o3⟩ := offsets n
    have hk0 : (k 0).val + 0 = b.val * 1 + (W3.rowMajor.symm n 0).val := hk 0
    have hk1 : (k 1).val + 0 = o.val * 1 + (W3.rowMajor.symm n 1).val := hk 1
    have hk2 : (k 2).val + 0 = r.val * 1 + (W3.rowMajor.symm n 2).val := hk 2
    have hk3 : (k 3).val + 0 = c.val * 1 + (W3.rowMajor.symm n 3).val := hk 3
    have e : k = ix4 b o ⟨r.val + n.val / 3, by omega⟩ ⟨c.val + n.val % 3, by omega⟩ := by
      funext a
      apply Fin.ext
      match a with
      | ⟨0, _⟩ => show (k 0).val = b.val; omega
      | ⟨1, _⟩ => show (k 1).val = o.val; omega
      | ⟨2, _⟩ => show (k 2).val = r.val + n.val / 3; omega
      | ⟨3, _⟩ => show (k 3).val = c.val + n.val % 3; omega
    rw [e]
    exact hX _ _
  · rfl

theorem neg_inf (i : S_.Idx) : val_main_cst (F := Ideal) i = ⊥ := by
  show Ideal.ofBits .f32 0xFF800000#32 = ⊥
  simp [Ideal.ofBits, Ideal.ieee]

theorem pos_inf (i : S_.Idx) : val_main_cst_0 (F := Ideal) i = ⊤ := by
  show Ideal.ofBits .f32 0x7F800000#32 = ⊤
  simp [Ideal.ofBits, Ideal.ieee]

/-- The greatest entry of each neighbourhood, as the reference computes it. -/
theorem greatest_apply (x : S16x1x1024x1024.Idx → EReal) (b : Fin 16) (o : Fin 1) (r c : Fin 1024) :
    val_main_v1 (F := Ideal) x (ix4 b o r c) = win9 max ⊥ (bordered (slice x b)) r.val c.val := by
  unfold val_main_v1
  refine (window_apply (FloatOps.maximumf (F := Ideal) (φ := .f32)) (val_main_v0 (F := Ideal) x) (val_main_cst (F := Ideal)) _ _ b o r c
    (bordered (slice x b)) (fun r' c' => padded_apply x b o r' c')).trans ?_
  rw [neg_inf]
  rfl

/-- The least entry of each neighbourhood, as the reference computes it. -/
theorem least_apply (x : S16x1x1024x1024.Idx → EReal) (b : Fin 16) (o : Fin 1) (r c : Fin 1024) :
    val_main_v2 (F := Ideal) x (ix4 b o r c) = win9 min ⊤ (bordered (slice x b)) r.val c.val := by
  unfold val_main_v2
  refine (window_apply (FloatOps.minimumf (F := Ideal) (φ := .f32)) (val_main_v0 (F := Ideal) x) (val_main_cst_0 (F := Ideal)) _ _ b o r c
    (bordered (slice x b)) (fun r' c' => padded_apply x b o r' c')).trans ?_
  rw [pos_inf]
  rfl

/-- THE REFERENCE'S RESULT is the edge mask of its argument. -/
theorem result_eq (x : S16x1x1024x1024.Idx → EReal) : val_main_v6 (F := Ideal) x = mask x := by
  funext i
  obtain ⟨b, o, r, c, rfl⟩ : ∃ (b : Fin 16) (o : Fin 1) (r c : Fin 1024), i = ix4 b o r c :=
    ⟨i 0, i 1, i 2, i 3, eq_ix4 i⟩
  rw [mask_apply, edge_eq_window, val_main_v6_apply, val_main_v5_apply, val_main_v3_apply, val_main_v4_apply,
    val_main_cst_1_apply, greatest_apply, least_apply]
  rfl

end Cert.EdgeMask.Reference
-- ==== Proof.lean ====
/-
  An edge mask of a batch of depth images: a Pallas kernel against its jnp reference, equal at the extended reals.

  THE FUNCTION. For each of 16 images of 1024×1024 pixels, each pixel looks at its 3×3 neighbourhood, pixels outside the
  image counting as zero, takes the neighbourhood's greatest value minus its least, and answers 1 where the difference
  exceeds the threshold (the binary32 nearest one tenth) and 0 elsewhere (Proof/Spec.lean: `bordered`, `edge`, `mask`).

  THE REFERENCE pads every image with a ring of zeros and slides a 3×3 window over it twice, once for the maximum from
  `−∞` and once for the minimum from `+∞` (Proof/RefValue.lean).

  THE KERNEL handles one image per grid point and never builds the padded image. It reduces the neighbourhood separably —
  first over the three rows, then over the three columns — and gets each neighbour by rotating the whole tile by one
  place; the line the rotation wraps around the end is overwritten with zero, which is exactly the padded ring's value
  there. After the row pass a border COLUMN would hold the reduction of three zeros, again zero, so the same mask serves
  the column pass (Proof/Masked.lean, Proof/KernelBlock.lean, Proof/KernelArray.lean).

  WHY THEY AGREE. The least (greatest) of nine extended reals does not depend on the order or grouping in which they are
  compared, and `+∞` (`−∞`) is the identity of `min` (`max`): Proof/Window.lean. The subtraction, the comparison and the
  conversion of its bit are the same on both sides. No law used needs the entries to be finite, so the precondition is
  never opened.

  Below: the three frames (the two kernels' are their generated frame runs, the reference's is its generated run with
  the result dropped), the empty idealization ledger, and the value claim from the two runs restated with `mask`.
-/
import proofs.«105019_j1726576855683_2_alg».proof.Defs
import proofs.«105019_j1726576855683_2_alg».proof.Proof.Gen.Kernel
import proofs.«105019_j1726576855683_2_alg».proof.Proof.Gen.Kernel.Skeleton
import proofs.«105019_j1726576855683_2_alg».proof.Proof.Gen.Kernel.Launch
import proofs.«105019_j1726576855683_2_alg».proof.Proof.Gen.Kernel.Points
import proofs.«105019_j1726576855683_2_alg».proof.Proof.Gen.Kernel.Frame
import proofs.«105019_j1726576855683_2_alg».proof.Proof.Gen.KernelIdeal
import proofs.«105019_j1726576855683_2_alg».proof.Proof.Gen.KernelIdeal.Skeleton
import proofs.«105019_j1726576855683_2_alg».proof.Proof.Gen.KernelIdeal.Launch
import proofs.«105019_j1726576855683_2_alg».proof.Proof.Gen.KernelIdeal.Points
import proofs.«105019_j1726576855683_2_alg».proof.Proof.Gen.KernelIdeal.Frame
import proofs.«105019_j1726576855683_2_alg».proof.Proof.Gen.ReferenceIdeal
import proofs.«105019_j1726576855683_2_alg».proof.Proof.Gen.Pre_finite_inputs
import proofs.«105019_j1726576855683_2_alg».proof.Proof.Gen.KernelIdeal.Value
import proofs.«105019_j1726576855683_2_alg».proof.Proof.Gen.ReferenceIdeal.Run
import proofs.«105019_j1726576855683_2_alg».proof.Proof.Gen.ReferenceIdeal.Read
import proofs.«105019_j1726576855683_2_alg».proof.Proof.KernelArray
import proofs.«105019_j1726576855683_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its argument alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its argument alone: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the result array at `mask` of the argument array they were given; the arguments agree. -/
theorem algebraic : Cert.algebraic_KernelIdeal_ReferenceIdeal := by
  intro m ρ m' ρ' _ hagree
  refine ⟨_, Cert.EdgeMask.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.EdgeMask.Reference.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
